-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x26x128 : Shape := ⟨3, ![16384, 26, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x26x128 : S_.BroadcastsInDim S16384x26x128 (![] : Fin 0 → Fin S16384x26x128.rank)
  reducesTo_S16384x26x128_S_d0_1_2 : S16384x26x128.ReducesTo [0, 1, 2] S_

variable [Facts]

def fn {F : FTy → Type} [FloatOps F] (main_arg0 : FVec F S16384x128 .f32) (main_arg1 : FVec F S16384x26x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x26x128 .f32 := Host.absf main_arg1
  let main_cst_0 : FVec F S_ .f32 := constant S_ .f32 0x7F800000#32
  let main_v5 : FVec F S16384x26x128 .f32 := broadcastInDim S16384x26x128 ![] bcast_S_S16384x26x128 main_cst_0
  let main_v6 : IVec S16384x26x128 1 := cmpf .olt main_v4 main_v5
  let main_c_1 : IVec S_ 1 := constantI S_ 1 1#1
  let main_v7 : IVec S_ 1 := (fun x v => Host.reduce IntOp.andi x v reducesTo_S16384x26x128_S_d0_1_2 h_S_) main_v6 main_c_1
  let main_v8 : IVec S_ 1 := andi main_v3 main_v7
  main_v8
-- ==== Kernel.lean ====
abbrev S16384x128 : Shape := ⟨2, ![16384, 128]⟩
abbrev S16384x26x128 : Shape := ⟨3, ![16384, 26, 128]⟩
abbrev S351 : Shape := ⟨1, ![351]⟩
abbrev S16384x27x27 : Shape := ⟨3, ![16384, 27, 27]⟩
abbrev S256x128 : Shape := ⟨2, ![256, 128]⟩
abbrev S256x26x128 : Shape := ⟨3, ![256, 26, 128]⟩
abbrev S256x27x27 : Shape := ⟨3, ![256, 27, 27]⟩
abbrev S256x1x128 : Shape := ⟨3, ![256, 1, 128]⟩
abbrev S256x27x128 : Shape := ⟨3, ![256, 27, 128]⟩
abbrev S_ : Shape := ⟨0, ![]⟩
abbrev S351x1 : Shape := ⟨2, ![351, 1]⟩
abbrev S351x2 : Shape := ⟨2, ![351, 2]⟩
abbrev S16384x351 : Shape := ⟨2, ![16384, 351]⟩

abbrev nBuf : Space → Nat
  | .hbm => 19
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S16384x26x128, .f32⟩
  | .hbm, ⟨2, _⟩ => ⟨S351, .i32⟩
  | .hbm, ⟨3, _⟩ => ⟨S351, .i1⟩
  | .hbm, ⟨4, _⟩ => ⟨S351, .i32⟩
  | .hbm, ⟨5, _⟩ => ⟨S351, .i1⟩
  | .hbm, ⟨6, _⟩ => ⟨S16384x27x27, .f32⟩
  | .hbm, ⟨7, _⟩ => ⟨S_, .i32⟩
  | .hbm, ⟨8, _⟩ => ⟨S351, .i32⟩
  | .hbm, ⟨9, _⟩ => ⟨S351, .i32⟩
  | .hbm, ⟨10, _⟩ => ⟨S351, .i32⟩
  | .hbm, ⟨11, _⟩ => ⟨S_, .i32⟩
  | .hbm, ⟨12, _⟩ => ⟨S351, .i32⟩
  | .hbm, ⟨13, _⟩ => ⟨S351, .i32⟩
  | .hbm, ⟨14, _⟩ => ⟨S351, .i32⟩
  | .hbm, ⟨15, _⟩ => ⟨S351x1, .i32⟩
  | .hbm, ⟨16, _⟩ => ⟨S351x1, .i32⟩
  | .hbm, ⟨17, _⟩ => ⟨S351x2, .i32⟩
  | .hbm, ⟨18, _⟩ => ⟨S16384x351, .f32⟩
  | .local _ .vmem, ⟨0, _⟩ => ⟨S256x128, .f32⟩
  | .local _ .vmem, ⟨1, _⟩ => ⟨S256x128, .f32⟩
  | .local _ .vmem, ⟨2, _⟩ => ⟨S256x26x128, .f32⟩
  | .local _ .vmem, ⟨3, _⟩ => ⟨S256x26x128, .f32⟩
  | .local _ .vmem, ⟨4, _⟩ => ⟨S256x27x27, .f32⟩
  | .local _ .vmem, ⟨5, _⟩ => ⟨S256x27x27, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_c_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_4 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x26x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x27x27 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  inb_S256x26x128_S256x26x128_0_0_0 : ∀ a, (![0, 0, 0] : Fin 3 → Nat) a + S256x26x128.size a ≤ S256x26x128.size a
  h_S256x26x128 : 0 < S256x26x128.numel
  shapeCasts_S256x128_S256x1x128 : S256x128.ShapeCasts S256x1x128
  concatenates_S256x1x128_S256x26x128_S256x27x128_d1 : Shape.Concatenates [S256x1x128, S256x26x128] S256x27x128 1
  inb_S256x27x27_S256x27x27_0_0_0 : ∀ a, (![0, 0, 0] : Fin 3 → Nat) a + S256x27x27.size a ≤ S256x27x27.size a
  h_S256x27x27 : 0 < S256x27x27.numel
  bcast_S_S351 : S_.BroadcastsInDim S351 (![] : Fin 0 → Fin S351.rank)
  bcast_S351_S351x1_0 : S351.BroadcastsInDim S351x1 (![0] : Fin 1 → Fin S351x1.rank)
  concatenates_S351x1_S351x1_S351x2_d1 : Shape.Concatenates [S351x1, S351x1] S351x2 1
  dot_S256x27x128_S256x27x128_S256x27x27_2_2_1_1_0_0_wf : DotDims.WF S256x27x128 S256x27x128 S256x27x27 [2] [2] [1] [1] [0] [0]
  gather_S16384x27x27_S351x2_S16384x351_0_12_n_n_12_1_1638411_wf : GatherDims.WF S16384x27x27 S351x2 S16384x351 [0] [1, 2] [] [1, 2] [] 1 ![16384, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S16384x128.size a
  hwx0_0 : ∀ i : grid0.Coords, EltTy.bits .f32 = 32 ∨ (Rect.block (s := S16384x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x26x128.size a ≤ S16384x26x128.size a
  hwx0_1 : ∀ i : grid0.Coords, EltTy.bits .f32 = 32 ∨ (Rect.block (s := S16384x26x128) S256x26x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x27x27.size a ≤ S16384x27x27.size a
  hwx0_2 : ∀ i : grid0.Coords, EltTy.bits .f32 = 32 ∨ (Rect.block (s := S16384x27x27) S256x27x27.size (cc0_transform_2 i) (hinb0_2 i)).WholeWords (EltTy.packing .f32)

variable [Facts₀]

def dot_S256x27x128_S256x27x128_S256x27x27_2_2_1_1_0_0 : DotDims S256x27x128 S256x27x128 S256x27x27 where
  lhsContracting := [2]
  rhsContracting := [2]
  lhsNonContracting := [1]
  rhsNonContracting := [1]
  lhsBatch := [0]
  rhsBatch := [0]
  wf := dot_S256x27x128_S256x27x128_S256x27x27_2_2_1_1_0_0_wf
def gather_S16384x27x27_S351x2_S16384x351_0_12_n_n_12_1_1638411 : GatherDims S16384x27x27 S351x2 S16384x351 where
  offsetDims := [0]
  collapsedSliceDims := [1, 2]
  operandBatchingDims := []
  startIndicesBatchingDims := []
  startIndexMap := [1, 2]
  indexVectorDim := 1
  sliceSizes := ![16384, 1, 1]
  wf := gather_S16384x27x27_S351x2_S16384x351_0_12_n_n_12_1_1638411_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x26x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x27x27.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x26x128 : Shape := ⟨3, ![16384, 26, 128]⟩
abbrev S351 : Shape := ⟨1, ![351]⟩
abbrev S16384x1x128 : Shape := ⟨3, ![16384, 1, 128]⟩
abbrev S16384x27x128 : Shape := ⟨3, ![16384, 27, 128]⟩
abbrev S16384x27x27 : Shape := ⟨3, ![16384, 27, 27]⟩
abbrev S_ : Shape := ⟨0, ![]⟩
abbrev S351x1 : Shape := ⟨2, ![351, 1]⟩
abbrev S351x2 : Shape := ⟨2, ![351, 2]⟩
abbrev S16384x351 : Shape := ⟨2, ![16384, 351]⟩

abbrev nBuf : Space → Nat
  | .hbm => 21
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x26x128, .f32⟩
  | .hbm, ⟨2, _⟩ => ⟨S351, .i32⟩
  | .hbm, ⟨3, _⟩ => ⟨S351, .i1⟩
  | .hbm, ⟨4, _⟩ => ⟨S351, .i32⟩
  | .hbm, ⟨5, _⟩ => ⟨S351, .i1⟩
  | .hbm, ⟨6, _⟩ => ⟨S16384x1x128, .f32⟩
  | .hbm, ⟨7, _⟩ => ⟨S16384x27x128, .f32⟩
  | .hbm, ⟨8, _⟩ => ⟨S16384x27x27, .f32⟩
  | .hbm, ⟨9, _⟩ => ⟨S_, .i32⟩
  | .hbm, ⟨10, _⟩ => ⟨S351, .i32⟩
  | .hbm, ⟨11, _⟩ => ⟨S351, .i32⟩
  | .hbm, ⟨12, _⟩ => ⟨S351, .i32⟩
  | .hbm, ⟨13, _⟩ => ⟨S_, .i32⟩
  | .hbm, ⟨14, _⟩ => ⟨S351, .i32⟩
  | .hbm, ⟨15, _⟩ => ⟨S351, .i32⟩
  | .hbm, ⟨16, _⟩ => ⟨S351, .i32⟩
  | .hbm, ⟨17, _⟩ => ⟨S351x1, .i32⟩
  | .hbm, ⟨18, _⟩ => ⟨S351x1, .i32⟩
  | .hbm, ⟨19, _⟩ => ⟨S351x2, .i32⟩
  | .hbm, ⟨20, _⟩ => ⟨S16384x351, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_4 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S16384x128_S16384x1x128_0_2 : S16384x128.BroadcastsInDim S16384x1x128 (![0, 2] : Fin 2 → Fin S16384x1x128.rank)
  concatenates_S16384x1x128_S16384x26x128_S16384x27x128_d1 : Shape.Concatenates [S16384x1x128, S16384x26x128] S16384x27x128 1
  bcast_S_S351 : S_.BroadcastsInDim S351 (![] : Fin 0 → Fin S351.rank)
  bcast_S351_S351x1_0 : S351.BroadcastsInDim S351x1 (![0] : Fin 1 → Fin S351x1.rank)
  concatenates_S351x1_S351x1_S351x2_d1 : Shape.Concatenates [S351x1, S351x1] S351x2 1
  dot_S16384x27x128_S16384x27x128_S16384x27x27_2_2_1_1_0_0_wf : DotDims.WF S16384x27x128 S16384x27x128 S16384x27x27 [2] [2] [1] [1] [0] [0]
  gather_S16384x27x27_S351x2_S16384x351_0_12_n_n_12_1_1638411_wf : GatherDims.WF S16384x27x27 S351x2 S16384x351 [0] [1, 2] [] [1, 2] [] 1 ![16384, 1, 1]

variable [Facts₀]

def dot_S16384x27x128_S16384x27x128_S16384x27x27_2_2_1_1_0_0 : DotDims S16384x27x128 S16384x27x128 S16384x27x27 where
  lhsContracting := [2]
  rhsContracting := [2]
  lhsNonContracting := [1]
  rhsNonContracting := [1]
  lhsBatch := [0]
  rhsBatch := [0]
  wf := dot_S16384x27x128_S16384x27x128_S16384x27x27_2_2_1_1_0_0_wf
def gather_S16384x27x27_S351x2_S16384x351_0_12_n_n_12_1_1638411 : GatherDims S16384x27x27 S351x2 S16384x351 where
  offsetDims := [0]
  collapsedSliceDims := [1, 2]
  operandBatchingDims := []
  startIndicesBatchingDims := []
  startIndexMap := [1, 2]
  indexVectorDim := 1
  sliceSizes := ![16384, 1, 1]
  wf := gather_S16384x27x27_S351x2_S16384x351_0_12_n_n_12_1_1638411_wf

class Facts : Prop extends Facts₀ where

variable [Facts]
-- ==== Proof.LibGram.lean ====
/-
  Rows stacked along the middle axis of a rank-3 array, and the batched product of such an array with itself, for any
  extents.

  * Two arrays of shapes [n, p, d] and [n, q, d] concatenated along the middle axis give an array of shape [n, r, d]
    (r = p + q).  Read at the coordinates (b, f, e) the result is the first array at (b, f, e) when f < p, and the second
    array at (b, f - p, e) otherwise.
  * The batched contraction "bfe,bge->bfg" of two arrays of shape [n, f, d] (batch axis 0, free axis 1, contracted
    axis 2) has, at the output coordinates (b, i, j), the operand coordinates (b, i, e) on the left and (b, j, e) on the
    right, where e runs over the contracted axis.  So on the extended reals the matrix unit's product into a zero
    accumulator and the host's general dot product are both, at (b, i, j), the sum over e of left(b, i, e) * right(b, j, e).
-/
import Idealize.ShloMosaic.PureOps.Ideal.Laws
import Idealize.ShloMosaic.Lib.ValueIdx
import Idealize.ShloMosaic.Lib.Pipeline.Value

noncomputable section

namespace Idealize.ShloMosaic.GramLib

open Idealize.ShloMosaic Idealize.ShloMosaic.ValueIdx

/-! ## Two arrays stacked along the middle axis -/

section Stack
variable {α : Type} {n p q r d : ℕ}

/-- Below the first extent the stacked array reads the first piece, at the same coordinates. -/
theorem concat_mid_left (x : (⟨3, ![n, p, d]⟩ : Shape).Idx → α) (y : (⟨3, ![n, q, d]⟩ : Shape).Idx → α)
    (h : Shape.Concatenates [(⟨3, ![n, p, d]⟩ : Shape), ⟨3, ![n, q, d]⟩] ⟨3, ![n, r, d]⟩ 1)
    (b : Fin n) (f : Fin r) (e : Fin d) (hf : f.val < p) :
    concatenate ⟨3, ![n, r, d]⟩ 1 [⟨⟨3, ![n, p, d]⟩, x⟩, ⟨⟨3, ![n, q, d]⟩, y⟩] h (ix3 b f e) = x (ix3 b ⟨f.val, hf⟩ e) :=
  concatenate_pair_apply_left (t := ⟨3, ![n, r, d]⟩) (s₁ := ⟨3, ![n, p, d]⟩) (s₂ := ⟨3, ![n, q, d]⟩) 1 x y h (ix3 b f e) rfl
    (ix3 b ⟨f.val, hf⟩ e) (fun ax => by
      match ax with
      | ⟨0, _⟩ => rfl
      | ⟨1, _⟩ => rfl
      | ⟨2, _⟩ => rfl)

/-- From the first extent on it reads the second piece, the middle coordinate the first extent less. -/
theorem concat_mid_right (x : (⟨3, ![n, p, d]⟩ : Shape).Idx → α) (y : (⟨3, ![n, q, d]⟩ : Shape).Idx → α)
    (h : Shape.Concatenates [(⟨3, ![n, p, d]⟩ : Shape), ⟨3, ![n, q, d]⟩] ⟨3, ![n, r, d]⟩ 1)
    (b : Fin n) (f : Fin r) (e : Fin d) (hf : p ≤ f.val) (hq : f.val - p < q) :
    concatenate ⟨3, ![n, r, d]⟩ 1 [⟨⟨3, ![n, p, d]⟩, x⟩, ⟨⟨3, ![n, q, d]⟩, y⟩] h (ix3 b f e) = y (ix3 b ⟨f.val - p, hq⟩ e) :=
  concatenate_pair_apply_right (t := ⟨3, ![n, r, d]⟩) (s₁ := ⟨3, ![n, p, d]⟩) (s₂ := ⟨3, ![n, q, d]⟩) 1 x y h (ix3 b f e) rfl rfl
    (ix3 b ⟨f.val - p, hq⟩ e) (fun ax hax => by
      match ax with
      | ⟨0, _⟩ => rfl
      | ⟨1, _⟩ => exact absurd rfl hax
      | ⟨2, _⟩ => rfl)
    (by show (f.val - p) + p = f.val; omega)

end Stack

/-! ## The batched product of an [n, f, d] array with another, contracted over the last axis -/

section Dims
variable {n f d : ℕ}

/-- The dimension numbers of "bfe,bge->bfg": contracted axes 2 and 2, free axes 1 and 1, batch axes 0 and 0. -/
def gramDims (n f d : ℕ)
    (wf : DotDims.WF (⟨3, ![n, f, d]⟩ : Shape) ⟨3, ![n, f, d]⟩ ⟨3, ![n, f, f]⟩ [2] [2] [1] [1] [0] [0]) :
    DotDims ⟨3, ![n, f, d]⟩ ⟨3, ![n, f, d]⟩ ⟨3, ![n, f, f]⟩ where
  lhsContracting := [2]
  rhsContracting := [2]
  lhsNonContracting := [1]
  rhsNonContracting := [1]
  lhsBatch := [0]
  rhsBatch := [0]
  wf := wf

variable (wf : DotDims.WF (⟨3, ![n, f, d]⟩ : Shape) ⟨3, ![n, f, d]⟩ ⟨3, ![n, f, f]⟩ [2] [2] [1] [1] [0] [0])

/-- The left operand's coordinates: the batch and the first free coordinate of the output, and the contraction's. -/
theorem lhs_batch (j : (⟨3, ![n, f, f]⟩ : Shape).Idx) (k : (gramDims n f d wf).contr.Idx) :
    ((gramDims n f d wf).lhsIdx j k 0 : ℕ) = j 0 := by
  simp [DotDims.lhsIdx, gramDims] <;> rfl
theorem lhs_free (j : (⟨3, ![n, f, f]⟩ : Shape).Idx) (k : (gramDims n f d wf).contr.Idx) :
    ((gramDims n f d wf).lhsIdx j k 1 : ℕ) = j 1 := by
  simp [DotDims.lhsIdx, gramDims] <;> rfl
/-- The right operand's: the batch and the SECOND free coordinate of the output, and the contraction's. -/
theorem rhs_batch (j : (⟨3, ![n, f, f]⟩ : Shape).Idx) (k : (gramDims n f d wf).contr.Idx) :
    ((gramDims n f d wf).rhsIdx j k 0 : ℕ) = j 0 := by
  simp [DotDims.rhsIdx, gramDims] <;> rfl
theorem rhs_free (j : (⟨3, ![n, f, f]⟩ : Shape).Idx) (k : (gramDims n f d wf).contr.Idx) :
    ((gramDims n f d wf).rhsIdx j k 1 : ℕ) = j 2 := by
  simp [DotDims.rhsIdx, gramDims] <;> rfl

theorem contr_rank : (gramDims n f d wf).contr.rank = 1 := (gramDims n f d wf).rank_contr

theorem contr_size : (gramDims n f d wf).contr.size ⟨0, by rw [contr_rank]; exact Nat.one_pos⟩ = d :=
  (gramDims n f d wf).size_contr 0 Nat.one_pos

/-- The contraction's indices are the coordinates of the last axis. -/
def contrFin : (gramDims n f d wf).contr.Idx ≃ Fin d :=
  contrEquiv1 (gramDims n f d wf) d (contr_rank wf) (contr_size wf)

theorem lhs_at (b : Fin n) (i j : Fin f) (e : Fin d) :
    (gramDims n f d wf).lhsIdx (ix3 b i j) ((contrFin wf).symm e) = ix3 b i e := by
  funext a
  apply Fin.ext
  match a with
  | ⟨0, _⟩ => exact lhs_batch wf (ix3 b i j) _
  | ⟨1, _⟩ => exact lhs_free wf (ix3 b i j) _
  | ⟨2, _⟩ =>
    exact ((gramDims n f d wf).lhsIdx_val_of_single (cl := 2) rfl (ix3 b i j) _).trans
      (contrEquiv1_symm_val (gramDims n f d wf) d (contr_rank wf) (contr_size wf) e)

theorem rhs_at (b : Fin n) (i j : Fin f) (e : Fin d) :
    (gramDims n f d wf).rhsIdx (ix3 b i j) ((contrFin wf).symm e) = ix3 b j e := by
  funext a
  apply Fin.ext
  match a with
  | ⟨0, _⟩ => exact rhs_batch wf (ix3 b i j) _
  | ⟨1, _⟩ => exact rhs_free wf (ix3 b i j) _
  | ⟨2, _⟩ =>
    exact ((gramDims n f d wf).rhsIdx_val_of_single (cr := 2) rfl (ix3 b i j) _).trans
      (contrEquiv1_symm_val (gramDims n f d wf) d (contr_rank wf) (contr_size wf) e)

/-- The contraction at the output coordinates (b, i, j), as a sum over the last axis. -/
theorem sum_contr {M : Type} [AddCommMonoid M] (F : (⟨3, ![n, f, d]⟩ : Shape).Idx → (⟨3, ![n, f, d]⟩ : Shape).Idx → M)
    (b : Fin n) (i j : Fin f) :
    (∑ k : (gramDims n f d wf).contr.Idx,
        F ((gramDims n f d wf).lhsIdx (ix3 b i j) k) ((gramDims n f d wf).rhsIdx (ix3 b i j) k))
      = ∑ e : Fin d, F (ix3 b i e) (ix3 b j e) := by
  rw [← Equiv.sum_comp (contrFin wf).symm]
  exact Finset.sum_congr rfl fun e _ => by rw [lhs_at, rhs_at]

variable {φ₁ φ₂ : FTy}

/-- The matrix unit's product into a zero accumulator, on the extended reals, at (b, i, j). -/
theorem matmul_zero_apply (prec : Option ContractPrecision) (lhs : FVec Ideal ⟨3, ![n, f, d]⟩ φ₁)
    (rhs : FVec Ideal ⟨3, ![n, f, d]⟩ φ₂) (b : Fin n) (i j : Fin f) :
    FloatOps.matmul (gramDims n f d wf) prec lhs rhs (constant ⟨3, ![n, f, f]⟩ .f32 0x00000000#32) (ix3 b i j)
      = ∑ e : Fin d, lhs (ix3 b i e) * rhs (ix3 b j e) :=
  (Ideal.matmul_constant_zero_apply (gramDims n f d wf) prec lhs rhs (ix3 b i j)).trans
    (sum_contr wf (fun u v => lhs u * rhs v) b i j)

/-- The host's general dot product, on the extended reals, at (b, i, j): the same sum. -/
theorem dotGeneral_apply (prec : Option ContractPrecision) (sched : HostSchedule) (lhs : FVec Ideal ⟨3, ![n, f, d]⟩ φ₁)
    (rhs : FVec Ideal ⟨3, ![n, f, d]⟩ φ₂) (b : Fin n) (i j : Fin f) :
    FloatOps.dotGeneral (gramDims n f d wf) prec sched lhs rhs (ix3 b i j)
      = ∑ e : Fin d, lhs (ix3 b i e) * rhs (ix3 b j e) :=
  (Ideal.dotGeneral_apply (gramDims n f d wf) prec sched lhs rhs (ix3 b i j)).trans
    (sum_contr wf (fun u v => lhs u * rhs v) b i j)

end Dims

end Idealize.ShloMosaic.GramLib

end
-- ==== Proof.LibKeepdims.lean ====
/-
  Reading the pieces of a softmax over a rank-3 array at an index, for any extents `a × b × c`.

  A softmax along an axis takes a maximum and a sum along that axis, puts the reduced axis back with extent one
  ("keepdims") and broadcasts it over the array again.  The lemmas here read each of those steps at an index written by
  its coordinates:

  * an `[a, b]` array cast to `[a, b, 1]` and an `[a, b, 1]` array broadcast to `[a, b, c]` (the last axis reduced);
  * an `[a, c]` array cast to `[a, 1, c]` and an `[a, 1, c]` array broadcast to `[a, b, c]` (the middle axis reduced);
  * the index over `(i, j)` with coordinate `k` inserted on the last axis is `(i, j, k)`, and over `(i, k)` with `j`
    inserted on the middle axis it is `(i, j, k)`;
  * hence, on the extended reals, a vector maximum along the last or the middle axis is the fold of `max` over that
    axis's coordinates, a vector sum the sum over them, and the host's maximum along the last axis the same fold.
-/
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type} {a b c : ℕ}

/-! ## The reduced axis put back with extent one, and broadcast again -/

/-- An `[a, b]` array cast to `[a, b, 1]` reads, at `(i, j, u)`, the operand at `(i, j)`. -/
theorem shapeCast_ab_ab1_apply (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

/-- An `[a, c]` array cast to `[a, 1, c]` reads, at `(i, u, k)`, the operand at `(i, k)`. -/
theorem shapeCast_ac_a1c_apply (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show k.val = if c = 1 then 0 else k.val
    split
    · have := k.isLt; omega
    · rfl

/-! ## The index with the reduced coordinate inserted -/

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

/-! ## Maxima and sums along one axis, on the extended reals -/

variable {φ : FTy}

/-- A vector maximum along the last axis, at `(i, j)`: the fold of `max` from the accumulator's value over `k`. -/
theorem multiReduction_max_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) fun k => src (ix3 i j k) := by
  refine (Ideal.multiReduction_maximumf_single src acc h hφ hacc (ix2 i j)).trans ?_
  refine congrArg (Finset.fold max (Ideal.ofBits φ acc) · Finset.univ) (funext fun k => ?_)
  exact congrArg src (lift_last h i j k)

/-- A vector sum along the last axis, at `(i, j)`: the sum over `k`. -/
theorem multiReduction_add_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  exact Finset.sum_congr rfl fun k _ => congrArg src (lift_last h i j k)

/-- A vector maximum along the middle axis, at `(i, k)`: the fold of `max` from the accumulator's value over `j`. -/
theorem multiReduction_max_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) fun j => src (ix3 i j k) := by
  refine (Ideal.multiReduction_maximumf_single src acc h hφ hacc (ix2 i k)).trans ?_
  refine congrArg (Finset.fold max (Ideal.ofBits φ acc) · Finset.univ) (funext fun j => ?_)
  exact congrArg src (lift_middle h i j k)

/-- A vector sum along the middle axis, at `(i, k)`: the sum over `j`. -/
theorem multiReduction_add_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  exact Finset.sum_congr rfl fun j _ => congrArg src (lift_middle h i j k)

/-- The host's maximum along the last axis, at `(i, j)`: the fold of `max` from the initial value over `k`. -/
theorem hostReduce_max_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) fun k => x (ix3 i j k) := by
  refine (Host.reduce_eq_fold_single (FloatOps.maximumf (F := Ideal) (φ := φ)) x init h' h hu (ix2 i j)).trans ?_
  refine congrArg (Finset.fold max (init (Shape.Idx.first hu)) · Finset.univ) (funext fun k => ?_)
  exact congrArg x (lift_last h i j k)

end Idealize.ShloMosaic.Keepdims

end
-- ==== Proof.Spec.lean ====
/-
  What both programs compute, for a batch of n samples.

  Each sample b has a dense row x(b, ·) of 128 numbers and 26 embedding rows y(b, 0..25, ·) of 128 numbers each.  Stack
  them into 27 rows: row 0 is the dense row, row f (f ≥ 1) is embedding row f - 1.  The sample's Gram matrix is the
  27 × 27 table of the rows' dot products,

      gram(b, f, g) = Σ_e row_f(b, e) · row_g(b, e),

  a sum of products on the extended reals; nothing in it needs the entries to be finite, since only the order of the
  terms of a finite sum is ever changed, and here not even that: both programs add the products over e in one sum.

  The kernel forms the 27 rows by casting the dense block to one row per sample and putting the embedding block under
  it, after a change of float format that is the identity on the extended reals, and multiplies the stacked block
  with itself on the matrix unit into a zero accumulator.  The reference forms them by a broadcast into a new middle
  axis and the same stacking, and takes the host's batched dot product.  Both are "gram".
-/
import Idealize.ShloMosaic.PureOps.Ideal.Laws
import Idealize.ShloMosaic.Lib.ValueIdx
import Idealize.ShloMosaic.Lib.Pipeline.Value
import proofs.«128177_j5403068858956_2_alg».proof.Proof.LibGram
import proofs.«128177_j5403068858956_2_alg».proof.Proof.LibKeepdims

noncomputable section

namespace Cert.GramSpec

open Idealize.ShloMosaic Idealize.ShloMosaic.ValueIdx

variable {n : ℕ}

/-- Row f of sample b at position e: the dense row for f = 0, embedding row f - 1 otherwise. -/
def stackAt (x : FVec Ideal ⟨2, ![n, 128]⟩ .f32) (y : FVec Ideal ⟨3, ![n, 26, 128]⟩ .f32) (b : Fin n) (f : Fin 27)
    (e : Fin 128) : EReal :=
  if _h : f.val = 0 then x (ix2 b e) else y (ix3 b ⟨f.val - 1, by omega⟩ e)

/-- The dot product of rows f and g of sample b. -/
def gramAt (x : FVec Ideal ⟨2, ![n, 128]⟩ .f32) (y : FVec Ideal ⟨3, ![n, 26, 128]⟩ .f32) (b : Fin n) (f g : Fin 27) : EReal :=
  ∑ e : Fin 128, stackAt x y b f e * stackAt x y b g e

/-- All samples' Gram matrices, as one [n, 27, 27] array. -/
def gram (x : FVec Ideal ⟨2, ![n, 128]⟩ .f32) (y : FVec Ideal ⟨3, ![n, 26, 128]⟩ .f32) : FVec Ideal ⟨3, ![n, 27, 27]⟩ .f32 :=
  fun j => gramAt x y (j 0) (j 1) (j 2)

theorem gram_apply (x : FVec Ideal ⟨2, ![n, 128]⟩ .f32) (y : FVec Ideal ⟨3, ![n, 26, 128]⟩ .f32) (b : Fin n) (f g : Fin 27) :
    gram x y (ix3 b f g) = gramAt x y b f g := rfl

/-! ## A sample's Gram matrix depends on that sample's rows only -/

theorem stackAt_congr {n' : ℕ} (x : FVec Ideal ⟨2, ![n, 128]⟩ .f32) (y : FVec Ideal ⟨3, ![n, 26, 128]⟩ .f32)
    (x' : FVec Ideal ⟨2, ![n', 128]⟩ .f32) (y' : FVec Ideal ⟨3, ![n', 26, 128]⟩ .f32) (b : Fin n) (b' : Fin n')
    (hx : ∀ e : Fin 128, x (ix2 b e) = x' (ix2 b' e)) (hy : ∀ (f : Fin 26) (e : Fin 128), y (ix3 b f e) = y' (ix3 b' f e))
    (f : Fin 27) (e : Fin 128) : stackAt x y b f e = stackAt x' y' b' f e := by
  unfold stackAt
  by_cases h : f.val = 0
  · rw [dif_pos h, dif_pos h]; exact hx e
  · rw [dif_neg h, dif_neg h]; exact hy _ e

theorem gramAt_congr {n' : ℕ} (x : FVec Ideal ⟨2, ![n, 128]⟩ .f32) (y : FVec Ideal ⟨3, ![n, 26, 128]⟩ .f32)
    (x' : FVec Ideal ⟨2, ![n', 128]⟩ .f32) (y' : FVec Ideal ⟨3, ![n', 26, 128]⟩ .f32) (b : Fin n) (b' : Fin n')
    (hx : ∀ e : Fin 128, x (ix2 b e) = x' (ix2 b' e)) (hy : ∀ (f : Fin 26) (e : Fin 128), y (ix3 b f e) = y' (ix3 b' f e))
    (f g : Fin 27) : gramAt x y b f g = gramAt x' y' b' f g := by
  unfold gramAt
  exact Finset.sum_congr rfl fun e _ => by
    rw [stackAt_congr x y x' y' b b' hx hy f e, stackAt_congr x y x' y' b b' hx hy g e]

/-- The Gram matrices of a run of consecutive samples (samples off, off + 1, … of all N) are that run of rows of all
    samples' Gram matrices. -/
theorem gram_block {n' : ℕ} (A0 : FVec Ideal ⟨2, ![n', 128]⟩ .f32) (A1 : FVec Ideal ⟨3, ![n', 26, 128]⟩ .f32)
    (x0 : FVec Ideal ⟨2, ![n, 128]⟩ .f32) (x1 : FVec Ideal ⟨3, ![n, 26, 128]⟩ .f32) (off : ℕ)
    (h0 : ∀ (b : Fin n) (B : Fin n') (e : Fin 128), B.val = off + b.val → x0 (ix2 b e) = A0 (ix2 B e))
    (h1 : ∀ (b : Fin n) (B : Fin n') (f : Fin 26) (e : Fin 128), B.val = off + b.val → x1 (ix3 b f e) = A1 (ix3 B f e))
    (j : (⟨3, ![n, 27, 27]⟩ : Shape).Idx) (i : (⟨3, ![n', 27, 27]⟩ : Shape).Idx)
    (hi0 : (i 0).val = off + (j 0).val) (hi1 : (i 1).val = (j 1).val) (hi2 : (i 2).val = (j 2).val) :
    gram x0 x1 j = gram A0 A1 i := by
  have e1 : (i 1 : Fin 27) = j 1 := Fin.ext hi1
  have e2 : (i 2 : Fin 27) = j 2 := Fin.ext hi2
  show gramAt x0 x1 (j 0) (j 1) (j 2) = gramAt A0 A1 (i 0) (i 1) (i 2)
  rw [e1, e2]
  exact gramAt_congr x0 x1 A0 A1 (j 0) (i 0) (fun e => h0 _ _ e hi0) (fun f e => h1 _ _ f e hi0) (j 1) (j 2)

/-! ## The kernel's stacked block, and its product with itself -/

/-- The dense block cast to one row per sample, on top of the embedding block: the 27 rows (the change of format is
    the identity). -/
theorem stack_block (x0 : FVec Ideal ⟨2, ![n, 128]⟩ .f32) (x1 : FVec Ideal ⟨3, ![n, 26, 128]⟩ .f32)
    (hb : FTy.bits .bf16 < FTy.bits .f32)
    (hsc : (⟨2, ![n, 128]⟩ : Shape).ShapeCasts ⟨3, ![n, 1, 128]⟩)
    (hcat : Shape.Concatenates [(⟨3, ![n, 1, 128]⟩ : Shape), ⟨3, ![n, 26, 128]⟩] ⟨3, ![n, 27, 128]⟩ 1)
    (b : Fin n) (f : Fin 27) (e : Fin 128) :
    (concatenate ⟨3, ![n, 27, 128]⟩ 1
        [⟨⟨3, ![n, 1, 128]⟩, shapeCast ⟨3, ![n, 1, 128]⟩ (truncf .bf16 x0 hb) hsc⟩,
         ⟨⟨3, ![n, 26, 128]⟩, truncf .bf16 x1 hb⟩] hcat : FVec Ideal ⟨3, ![n, 27, 128]⟩ .bf16) (ix3 b f e)
      = stackAt x0 x1 b f e := by
  unfold stackAt
  by_cases h : f.val = 0
  · rw [dif_pos h]
    refine (GramLib.concat_mid_left _ _ hcat b f e (by omega)).trans ?_
    exact Keepdims.shapeCast_ac_a1c_apply _ hsc b _ e
  · rw [dif_neg h]
    exact GramLib.concat_mid_right _ _ hcat b f e (by omega) (by omega)

/-- The matrix unit's product of the stacked block with itself, into zero: the samples' Gram matrices. -/
theorem block_product (wf : DotDims.WF (⟨3, ![n, 27, 128]⟩ : Shape) ⟨3, ![n, 27, 128]⟩ ⟨3, ![n, 27, 27]⟩ [2] [2] [1] [1] [0] [0])
    (x0 : FVec Ideal ⟨2, ![n, 128]⟩ .f32) (x1 : FVec Ideal ⟨3, ![n, 26, 128]⟩ .f32)
    (hb : FTy.bits .bf16 < FTy.bits .f32)
    (hsc : (⟨2, ![n, 128]⟩ : Shape).ShapeCasts ⟨3, ![n, 1, 128]⟩)
    (hcat : Shape.Concatenates [(⟨3, ![n, 1, 128]⟩ : Shape), ⟨3, ![n, 26, 128]⟩] ⟨3, ![n, 27, 128]⟩ 1) :
    FloatOps.matmul (GramLib.gramDims n 27 128 wf) none
        (concatenate ⟨3, ![n, 27, 128]⟩ 1
          [⟨⟨3, ![n, 1, 128]⟩, shapeCast ⟨3, ![n, 1, 128]⟩ (truncf .bf16 x0 hb) hsc⟩,
           ⟨⟨3, ![n, 26, 128]⟩, truncf .bf16 x1 hb⟩] hcat : FVec Ideal ⟨3, ![n, 27, 128]⟩ .bf16)
        (concatenate ⟨3, ![n, 27, 128]⟩ 1
          [⟨⟨3, ![n, 1, 128]⟩, shapeCast ⟨3, ![n, 1, 128]⟩ (truncf .bf16 x0 hb) hsc⟩,
           ⟨⟨3, ![n, 26, 128]⟩, truncf .bf16 x1 hb⟩] hcat : FVec Ideal ⟨3, ![n, 27, 128]⟩ .bf16)
        (constant (F := Ideal) ⟨3, ![n, 27, 27]⟩ .f32 0x00000000#32)
      = gram x0 x1 := by
  funext j
  obtain ⟨b, f, g, rfl⟩ : ∃ (b : Fin n) (f g : Fin 27), j = ix3 b f g := ⟨j 0, j 1, j 2, eq_ix3 j⟩
  refine (GramLib.matmul_zero_apply wf none _ _ b f g).trans ?_
  show _ = ∑ e : Fin 128, stackAt x0 x1 b f e * stackAt x0 x1 b g e
  exact Finset.sum_congr rfl fun e _ => by
    rw [stack_block x0 x1 hb hsc hcat b f e, stack_block x0 x1 hb hsc hcat b g e]

/-! ## The reference's stacked array, and its batched dot product with itself -/

/-- The dense array broadcast into a new middle axis of extent one reads, at (b, u, e), the dense array at (b, e). -/
theorem dense_row (x0 : FVec Ideal ⟨2, ![n, 128]⟩ .f32)
    (hbc : (⟨2, ![n, 128]⟩ : Shape).BroadcastsInDim ⟨3, ![n, 1, 128]⟩ (![0, 2] : Fin 2 → Fin 3))
    (b : Fin n) (u : Fin 1) (e : Fin 128) :
    broadcastInDim (⟨3, ![n, 1, 128]⟩ : Shape) (![0, 2] : Fin 2 → Fin 3) hbc x0 (ix3 b u e) = x0 (ix2 b e) := by
  refine broadcastInDim_apply (![0, 2] : Fin 2 → Fin 3) hbc x0 (ix3 b u e) (ix2 b e) fun a => ?_
  match a with
  | ⟨0, _⟩ =>
    show b.val = if n = 1 then 0 else b.val
    split
    · have := b.isLt; omega
    · rfl
  | ⟨1, _⟩ =>
    show e.val = if (128 : ℕ) = 1 then 0 else e.val
    rw [if_neg (by decide)]

/-- That row on top of the embedding array: the 27 rows. -/
theorem stack_host (x0 : FVec Ideal ⟨2, ![n, 128]⟩ .f32) (x1 : FVec Ideal ⟨3, ![n, 26, 128]⟩ .f32)
    (hbc : (⟨2, ![n, 128]⟩ : Shape).BroadcastsInDim ⟨3, ![n, 1, 128]⟩ (![0, 2] : Fin 2 → Fin 3))
    (hcat : Shape.Concatenates [(⟨3, ![n, 1, 128]⟩ : Shape), ⟨3, ![n, 26, 128]⟩] ⟨3, ![n, 27, 128]⟩ 1)
    (b : Fin n) (f : Fin 27) (e : Fin 128) :
    (concatenate ⟨3, ![n, 27, 128]⟩ 1
        [⟨⟨3, ![n, 1, 128]⟩, broadcastInDim (⟨3, ![n, 1, 128]⟩ : Shape) (![0, 2] : Fin 2 → Fin 3) hbc x0⟩,
         ⟨⟨3, ![n, 26, 128]⟩, x1⟩] hcat : FVec Ideal ⟨3, ![n, 27, 128]⟩ .f32) (ix3 b f e)
      = stackAt x0 x1 b f e := by
  unfold stackAt
  by_cases h : f.val = 0
  · rw [dif_pos h]
    refine (GramLib.concat_mid_left _ _ hcat b f e (by omega)).trans ?_
    exact dense_row x0 hbc b _ e
  · rw [dif_neg h]
    exact GramLib.concat_mid_right _ _ hcat b f e (by omega) (by omega)

/-- The host's batched dot product of the stacked array with itself: the samples' Gram matrices. -/
theorem host_product (wf : DotDims.WF (⟨3, ![n, 27, 128]⟩ : Shape) ⟨3, ![n, 27, 128]⟩ ⟨3, ![n, 27, 27]⟩ [2] [2] [1] [1] [0] [0])
    (x0 : FVec Ideal ⟨2, ![n, 128]⟩ .f32) (x1 : FVec Ideal ⟨3, ![n, 26, 128]⟩ .f32)
    (hbc : (⟨2, ![n, 128]⟩ : Shape).BroadcastsInDim ⟨3, ![n, 1, 128]⟩ (![0, 2] : Fin 2 → Fin 3))
    (hcat : Shape.Concatenates [(⟨3, ![n, 1, 128]⟩ : Shape), ⟨3, ![n, 26, 128]⟩] ⟨3, ![n, 27, 128]⟩ 1) :
    FloatOps.dotGeneral (GramLib.gramDims n 27 128 wf) none .single
        (concatenate ⟨3, ![n, 27, 128]⟩ 1
          [⟨⟨3, ![n, 1, 128]⟩, broadcastInDim (⟨3, ![n, 1, 128]⟩ : Shape) (![0, 2] : Fin 2 → Fin 3) hbc x0⟩,
           ⟨⟨3, ![n, 26, 128]⟩, x1⟩] hcat : FVec Ideal ⟨3, ![n, 27, 128]⟩ .f32)
        (concatenate ⟨3, ![n, 27, 128]⟩ 1
          [⟨⟨3, ![n, 1, 128]⟩, broadcastInDim (⟨3, ![n, 1, 128]⟩ : Shape) (![0, 2] : Fin 2 → Fin 3) hbc x0⟩,
           ⟨⟨3, ![n, 26, 128]⟩, x1⟩] hcat : FVec Ideal ⟨3, ![n, 27, 128]⟩ .f32)
      = gram x0 x1 := by
  funext j
  obtain ⟨b, f, g, rfl⟩ : ∃ (b : Fin n) (f g : Fin 27), j = ix3 b f g := ⟨j 0, j 1, j 2, eq_ix3 j⟩
  refine (GramLib.dotGeneral_apply wf none .single _ _ b f g).trans ?_
  show _ = ∑ e : Fin 128, stackAt x0 x1 b f e * stackAt x0 x1 b g e
  exact Finset.sum_congr rfl fun e _ => by
    rw [stack_host x0 x1 hbc hcat b f e, stack_host x0 x1 hbc hcat b g e]

end Cert.GramSpec

end
-- ==== Proof.KernelValue.lean ====
/-
  The kernel program's result array, read.

  The pipeline has 64 grid points; point t stages rows 256 t … 256 t + 255 of the dense array and of the embedding
  array, the body multiplies the 27 stacked rows of each of those 256 samples with themselves, and the point writes the
  256 Gram matrices back as rows 256 t … 256 t + 255 of the [16384, 27, 27] output.  A sample's Gram matrix depends on
  that sample's rows only, so what point t writes is block t of ONE array: the specification's "gram" of the two whole
  argument arrays.  The 64 blocks tile the output (the point covering sample r is r / 256), so after the run the output
  array IS that array.  The operations after the pipeline then build the [351, 2] table of pairs and gather the
  Gram matrices' entries at those pairs.
-/
import proofs.«128177_j5403068858956_2_alg».proof.Proof.Gen.KernelIdeal.Frame
import proofs.«128177_j5403068858956_2_alg».proof.Proof.Spec
import Idealize.ShloMosaic.Lib.Pipeline.Value
import Idealize.ShloMosaic.Lib.StableHlo.Run

set_option maxRecDepth 16384

noncomputable section

namespace Cert.KernelIdeal.GramValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The body's product is the block's Gram matrices -/

theorem payload_eq (x0 : Vec Ideal S256x128 .f32) (x1 : Vec Ideal S256x26x128 .f32) :
    k0_pay1 (F := Ideal) x0 x1 = Cert.GramSpec.gram (n := 256) x0 x1 := by
  unfold k0_pay1
  exact Cert.GramSpec.block_product (n := 256) dot_S256x27x128_S256x27x128_S256x27x27_2_2_1_1_0_0_wf x0 x1
    bitsLt_bf16_f32 shapeCasts_S256x128_S256x1x128 concatenates_S256x1x128_S256x26x128_S256x27x128_d1

/-! ## Where the three windows' blocks sit at a point -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 64 points: all three windows sit at block t on the sample axis and at
    block 0 on the others. -/
theorem idx_facts : ∀ t : Fin cfg0.N, win0_2.index t (0 : Fin 3) = t.val
    ∧ win0_2.index t (1 : Fin 3) = 0 ∧ win0_2.index t (2 : Fin 3) = 0
    ∧ win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- The specification's array of the argument arrays as the pipeline finds them. -/
abbrev gramV (c : Dev nD) : FVec Ideal S16384x27x27 .f32 :=
  Cert.GramSpec.gram (n := 16384) (V m c main_arg0) (V m c main_arg1)

/-- What point t writes back is block t of that array. -/
theorem flushed_eq (c : Dev nD) (t : Fin cfg0.N) :
    (dats m 0 c).flushed 2 t = ((cfg0.win 2).blk t).view.read (Elt Ideal) (gramV m c) := by
  show (cfg0.win 2).cut (grid0.coords t) ((dats m 0 c).after 2 t) = _
  rw [after0_2]
  unfold out0_2
  rw [View.canon_unit_zero hz3]
  simp only [View.ld_unit_zero (S := S256x128) hz2, View.ld_unit_zero (S := S256x26x128) hz3]
  rw [payload_eq]
  have hN : cfg0.N = 64 := N_0
  have ht : t.val < 64 := hN ▸ t.isLt
  obtain ⟨e0, e1, e2, e3, e4, e5, e6, e7⟩ := idx_facts t
  funext j
  show Cert.GramSpec.gram (n := 256) (iblk m c 0 t) (iblk m c 1 t) j
    = Cert.GramSpec.gram (n := 16384) (V m c main_arg0) (V m c main_arg1) (((cfg0.win 2).blk t).view.emb j)
  refine Cert.GramSpec.gram_block (n := 256) (n' := 16384) (V m c main_arg0) (V m c main_arg1) (iblk m c 0 t) (iblk m c 1 t)
    (t.val * 256) (fun b B e hB => ?_) (fun b B f e hB => ?_) j (((cfg0.win 2).blk t).view.emb j) ?_ ?_ ?_
  · show V m c main_arg0 (((cfg0.win 0).blk t).view.emb (ix2 b e)) = V m c main_arg0 (ix2 B e)
    refine congrArg (V m c main_arg0) (funext fun a => Fin.ext ?_)
    match a with
    | ⟨0, _⟩ => show win0_0.index t (0 : Fin 2) * 256 + 1 * b.val = B.val; omega
    | ⟨1, _⟩ => show win0_0.index t (1 : Fin 2) * 128 + 1 * e.val = e.val; omega
  · show V m c main_arg1 (((cfg0.win 1).blk t).view.emb (ix3 b f e)) = V m c main_arg1 (ix3 B f e)
    refine congrArg (V m c main_arg1) (funext fun a => Fin.ext ?_)
    match a with
    | ⟨0, _⟩ => show win0_1.index t (0 : Fin 3) * 256 + 1 * b.val = B.val; omega
    | ⟨1, _⟩ => show win0_1.index t (1 : Fin 3) * 26 + 1 * f.val = f.val; omega
    | ⟨2, _⟩ => show win0_1.index t (2 : Fin 3) * 128 + 1 * e.val = e.val; omega
  · show win0_2.index t (0 : Fin 3) * 256 + 1 * (j 0).val = t.val * 256 + (j 0).val; omega
  · show win0_2.index t (1 : Fin 3) * 27 + 1 * (j 1).val = (j 1).val; omega
  · show win0_2.index t (2 : Fin 3) * 27 + 1 * (j 2).val = (j 2).val; omega

/-! ## The blocks tile the output -/

/-- An index of the output is in point t's block iff each coordinate is in the block's range on its axis. -/
theorem mem_blk (t : Fin cfg0.N) (i : S16384x27x27.Idx) :
    i ∈ ((cfg0.win 2).blk t).view.set ↔ ∀ a : Fin 3, win0_2.index t a * S256x27x27.size a ≤ (i a).val ∧ (i a).val < win0_2.index t a * S256x27x27.size a + S256x27x27.size a := by
  show i ∈ ((View.whole main_v0).slice (win0_2.rect t)).set ↔ _
  rw [View.set_slice_whole, Rect.mem_set_unit]
  exact Iff.rfl

/-- Sample r's Gram matrix is written by point r / 256. -/
theorem cover (i : S16384x27x27.Idx) :
    ∃ t : Fin cfg0.N, (cfg0.win 2).flush t = true ∧ i ∈ ((cfg0.win 2).blk t).view.set := by
  have hN : cfg0.N = 64 := N_0
  have hi0 : (i 0).val < 16384 := (i 0).isLt
  have hi1 : (i 1).val < 27 := (i 1).isLt
  have hi2 : (i 2).val < 27 := (i 2).isLt
  obtain ⟨t, ht⟩ : ∃ t : Fin cfg0.N, t.val = (i 0).val / 256 := ⟨⟨(i 0).val / 256, by omega⟩, rfl⟩
  obtain ⟨e0, e1, e2, -⟩ := idx_facts t
  refine ⟨t, flush0_2 t, ?_⟩
  rw [mem_blk]
  intro a
  match a with
  | ⟨0, _⟩ => show win0_2.index t (0 : Fin 3) * 256 ≤ (i 0).val ∧ (i 0).val < win0_2.index t (0 : Fin 3) * 256 + 256; omega
  | ⟨1, _⟩ => show win0_2.index t (1 : Fin 3) * 27 ≤ (i 1).val ∧ (i 1).val < win0_2.index t (1 : Fin 3) * 27 + 27; omega
  | ⟨2, _⟩ => show win0_2.index t (2 : Fin 3) * 27 ≤ (i 2).val ∧ (i 2).val < win0_2.index t (2 : Fin 3) * 27 + 27; omega

/-- The output array after the run: the Gram matrices of the argument arrays as launched. -/
theorem final (c : Dev nD) : (dats m 0 c).arrAt 2 cfg0.N
    = Cert.GramSpec.gram (n := 16384) (m ((c : Thread nD τ).loc main_arg0)) (m ((c : Thread nD τ).loc main_arg1)) :=
  ((dats m 0 c).arrAt_eq_of_cover 2 (gramV m c) (fun t _ => flushed_eq m c t) cover).trans
    (by rw [gramV, V_main_arg0, V_main_arg1])

end Cert.KernelIdeal.GramValue

end
-- ==== Proof.KernelRun.lean ====
/-
  The kernel program, run.

  After the pipeline the output array holds the Gram matrices of the two arguments (the value module); the four
  constant tables written before the pipeline are untouched by it; the twelve operations after it wrap the two tables of
  pair members into range (a no-op: the wrap is selected by an all-false mask), set them side by side as the [351, 2]
  pair table, and gather the Gram matrices' entries at those pairs into the result.  Every weakly fair execution ends
  with the result buffer at that gather and the arguments as they were.
-/
import proofs.«128177_j5403068858956_2_alg».proof.Proof.KernelValue

set_option maxRecDepth 16384

noncomputable section

namespace Cert.KernelIdeal.GramValue

open Cert.KernelIdeal Cert.KernelIdeal.Gen Idealize.ShloMosaic Idealize.ShloMosaic.TcCoe Idealize.SL.Sem
open Idealize.ShloMosaic.Pipeline (Dat)
open Idealize.ShloMosaic.StableHlo

variable (m : (ℓ : Loc nD τ sig) → Buf (Elt Ideal) ℓ) (ρ : Dev nD → PrngReg)

/-- The pairs (f, g), f < g, as the program lays them out: a [351, 2] table of 32-bit integers. -/
abbrev pairTable : (⟨S351x2, .i32⟩ : BufTy).Contents (Elt Ideal) :=
  concatenate S351x2 1
    [⟨S351x1, broadcastInDim S351x1 ![0] bcast_S351_S351x1_0
        (select (constantI S351 1 0#1)
          (addi (fun i => lit0 (S351.rowMajor i)) (broadcastInDim S351 ![] bcast_S_S351 (constantI S_ 32 27#32)))
          (fun i => lit0 (S351.rowMajor i)) : (⟨S351, .i32⟩ : BufTy).Contents (Elt Ideal))⟩,
     ⟨S351x1, broadcastInDim S351x1 ![0] bcast_S351_S351x1_0
        (select (constantI S351 1 0#1)
          (addi (fun i => lit1 (S351.rowMajor i)) (broadcastInDim S351 ![] bcast_S_S351 (constantI S_ 32 27#32)))
          (fun i => lit1 (S351.rowMajor i)) : (⟨S351, .i32⟩ : BufTy).Contents (Elt Ideal))⟩]
    concatenates_S351x1_S351x1_S351x2_d1

/-! ## What the operations after the pipeline find -/

/-- The result buffer is no array of the pipeline: the run's post states it as the later operations leave it. -/
theorem result_mem_rest : main_v10 ∈ Pipeline.restRefs sig (cfgs 0).spec :=
  Pipeline.mem_restRefs_of main_v10 rfl (by decide)

/-- They find the pipeline's output array as the pipeline left it, -/
theorem found_output (c : Dev nD) :
    Pipeline.withArrays (cfgs 0).spec c (V0 m c) (fun w => (dats m 0 c).arrAt w (cfgs 0).N) (Proc.devRef .tc main_v0)
      = (dats m 0 c).arrAt 2 cfg0.N :=
  Pipeline.withArrays_arr spec0 launch0.win.arr_inj c _ _ 2

/-- and every buffer that is no array of the pipeline as it was when the pipeline started. -/
theorem found_other (c : Dev nD) (b : Ref sig .tc) (hb : ∀ w, Pipeline.arrRef spec0 w ≠ b) :
    Pipeline.withArrays (cfgs 0).spec c (V0 m c) (fun w => (dats m 0 c).arrAt w (cfgs 0).N) (Proc.devRef .tc b)
      = V0 m c (Proc.devRef .tc b) :=
  Pipeline.withArrays_of_ne spec0 c _ _ b hb

/-- The four tables written before the pipeline. -/
theorem first_members (c : Dev nD) :
    V0 m c (Proc.devRef .tc main_c) = (fun i => lit0 (S351.rowMajor i) : (⟨S351, .i32⟩ : BufTy).Contents (Elt Ideal)) := by
  show StableHlo.after hostOps0 (fun b => m (c, b)) (Proc.devRef .tc main_c) = _
  after_results
  rfl
theorem first_mask (c : Dev nD) :
    V0 m c (Proc.devRef .tc main_c_0) = (constantI S351 1 0#1 : (⟨S351, .i1⟩ : BufTy).Contents (Elt Ideal)) := by
  show StableHlo.after hostOps0 (fun b => m (c, b)) (Proc.devRef .tc main_c_0) = _
  after_results
theorem second_members (c : Dev nD) :
    V0 m c (Proc.devRef .tc main_c_1) = (fun i => lit1 (S351.rowMajor i) : (⟨S351, .i32⟩ : BufTy).Contents (Elt Ideal)) := by
  show StableHlo.after hostOps0 (fun b => m (c, b)) (Proc.devRef .tc main_c_1) = _
  after_results
  rfl
theorem second_mask (c : Dev nD) :
    V0 m c (Proc.devRef .tc main_c_2) = (constantI S351 1 0#1 : (⟨S351, .i1⟩ : BufTy).Contents (Elt Ideal)) := by
  show StableHlo.after hostOps0 (fun b => m (c, b)) (Proc.devRef .tc main_c_2) = _
  after_results

/-- The result as the later operations leave it: the gather, at the pair table, of the pipeline's output array. -/
theorem tail_eq (c : Dev nD) :
    Pipeline.afterTail₀ cfgs (dats m) 0 (V0 m) [hostOps1] c main_v10
      = Host.gather gather_S16384x27x27_S351x2_S16384x351_0_12_n_n_12_1_1638411 ((dats m 0 c).arrAt 2 cfg0.N) pairTable := by
  unfold Pipeline.afterTail₀
  show StableHlo.after hostOps1 _ (Proc.devRef .tc main_v10) = _
  after_results
  rw [found_output m c, found_other m c main_c (by decide), found_other m c main_c_0 (by decide),
    found_other m c main_c_1 (by decide), found_other m c main_c_2 (by decide),
    first_members m c, first_mask m c, second_members m c, second_mask m c]

/-! ## The run, read -/

/-- On every device, from any memory with zero counters: every weakly fair execution of the program terminates with the
    result at the gather, at the pair table, of the Gram matrices of the two arguments, and the arguments unchanged. -/
theorem run : θ_run defs (onTc (τ := τ) (main (F := Ideal))) ⟨m, fun _ => 0, ρ⟩ fun r => ∀ c : Dev nD,
      r.2.mem ((c : Thread nD τ).loc main_v10)
        = Host.gather gather_S16384x27x27_S351x2_S16384x351_0_12_n_n_12_1_1638411
            (Cert.GramSpec.gram (n := 16384) (m ((c : Thread nD τ).loc main_arg0)) (m ((c : Thread nD τ).loc main_arg1)))
            pairTable
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v10 result_mem_rest).trans ((tail_eq m c).trans (by rw [final m c])),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.GramValue

end
-- ==== Proof.RefRun.lean ====
/-
  The reference program, run.

  Its nineteen host operations in order: the two tables of the 351 pairs (f, g) with f < g (first and second members),
  the dense array given a middle axis of extent one and put on top of the embedding array (27 rows per sample), the
  batched dot product of that array with itself (the Gram matrices), the pair tables wrapped into range — a no-op here,
  the wrap being selected by an all-false mask — and set side by side as a [351, 2] table, and the gather of the Gram
  matrices' entries at those pairs.  Every weakly fair execution ends with the result buffer at that composed value of
  the two argument arrays, which are left as they were; and the batched dot product there is the specification's
  "gram" of the two arguments.
-/
import proofs.«128177_j5403068858956_2_alg».proof.Proof.Gen.ReferenceIdeal
import proofs.«128177_j5403068858956_2_alg».proof.Proof.Spec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [
    nullary main_c (fun i => lit0 (S351.rowMajor i)),
    nullary main_c_0 (constantI S351 1 0#1),
    nullary main_c_1 (fun i => lit1 (S351.rowMajor i)),
    nullary main_c_2 (constantI S351 1 0#1),
    unary main_arg0 main_v0 (broadcastInDim S16384x1x128 ![0, 2] bcast_S16384x128_S16384x1x128_0_2 : (⟨S16384x128, .f32⟩ : BufTy).Contents (Elt F) → (⟨S16384x1x128, .f32⟩ : BufTy).Contents (Elt F)),
    binary main_v0 main_arg1 main_v1 ((fun a b => concatenate S16384x27x128 1 [⟨S16384x1x128, a⟩, ⟨S16384x26x128, b⟩] concatenates_S16384x1x128_S16384x26x128_S16384x27x128_d1) : (⟨S16384x1x128, .f32⟩ : BufTy).Contents (Elt F) → (⟨S16384x26x128, .f32⟩ : BufTy).Contents (Elt F) → (⟨S16384x27x128, .f32⟩ : BufTy).Contents (Elt F)),
    binary main_v1 main_v1 main_v2 ((fun l r => Host.dotGeneral dot_S16384x27x128_S16384x27x128_S16384x27x27_2_2_1_1_0_0 none l r) : (⟨S16384x27x128, .f32⟩ : BufTy).Contents (Elt F) → (⟨S16384x27x128, .f32⟩ : BufTy).Contents (Elt F) → (⟨S16384x27x27, .f32⟩ : BufTy).Contents (Elt F)),
    nullary main_c_3 (constantI S_ 32 27#32),
    unary main_c_3 main_v3 (broadcastInDim S351 ![] bcast_S_S351 : (⟨S_, .i32⟩ : BufTy).Contents (Elt F) → (⟨S351, .i32⟩ : BufTy).Contents (Elt F)),
    binary main_c main_v3 main_v4 (addi : (⟨S351, .i32⟩ : BufTy).Contents (Elt F) → (⟨S351, .i32⟩ : BufTy).Contents (Elt F) → (⟨S351, .i32⟩ : BufTy).Contents (Elt F)),
    ternary main_c_0 main_v4 main_c main_v5 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    nullary main_c_4 (constantI S_ 32 27#32),
    unary main_c_4 main_v6 (broadcastInDim S351 ![] bcast_S_S351 : (⟨S_, .i32⟩ : BufTy).Contents (Elt F) → (⟨S351, .i32⟩ : BufTy).Contents (Elt F)),
    binary main_c_1 main_v6 main_v7 (addi : (⟨S351, .i32⟩ : BufTy).Contents (Elt F) → (⟨S351, .i32⟩ : BufTy).Contents (Elt F) → (⟨S351, .i32⟩ : BufTy).Contents (Elt F)),
    ternary main_c_2 main_v7 main_c_1 main_v8 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    unary main_v5 main_v9 (broadcastInDim S351x1 ![0] bcast_S351_S351x1_0 : (⟨S351, .i32⟩ : BufTy).Contents (Elt F) → (⟨S351x1, .i32⟩ : BufTy).Contents (Elt F)),
    unary main_v8 main_v10 (broadcastInDim S351x1 ![0] bcast_S351_S351x1_0 : (⟨S351, .i32⟩ : BufTy).Contents (Elt F) → (⟨S351x1, .i32⟩ : BufTy).Contents (Elt F)),
    binary main_v9 main_v10 main_v11 ((fun a b => concatenate S351x2 1 [⟨S351x1, a⟩, ⟨S351x1, b⟩] concatenates_S351x1_S351x1_S351x2_d1) : (⟨S351x1, .i32⟩ : BufTy).Contents (Elt F) → (⟨S351x1, .i32⟩ : BufTy).Contents (Elt F) → (⟨S351x2, .i32⟩ : BufTy).Contents (Elt F)),
    binary main_v2 main_v11 main_v12 ((fun x i => Host.gather gather_S16384x27x27_S351x2_S16384x351_0_12_n_n_12_1_1638411 x i) : (⟨S16384x27x27, .f32⟩ : BufTy).Contents (Elt F) → (⟨S351x2, .i32⟩ : BufTy).Contents (Elt F) → (⟨S16384x351, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., binary_bufs_sub ..⟩

/-- The pairs (f, g), f < g, as the program lays them out: a [351, 2] table of 32-bit integers. -/
abbrev pairTable : (⟨S351x2, .i32⟩ : BufTy).Contents (Elt F) :=
  concatenate S351x2 1
    [⟨S351x1, broadcastInDim S351x1 ![0] bcast_S351_S351x1_0
        (select (constantI S351 1 0#1)
          (addi (fun i => lit0 (S351.rowMajor i)) (broadcastInDim S351 ![] bcast_S_S351 (constantI S_ 32 27#32)))
          (fun i => lit0 (S351.rowMajor i)) : (⟨S351, .i32⟩ : BufTy).Contents (Elt F))⟩,
     ⟨S351x1, broadcastInDim S351x1 ![0] bcast_S351_S351x1_0
        (select (constantI S351 1 0#1)
          (addi (fun i => lit1 (S351.rowMajor i)) (broadcastInDim S351 ![] bcast_S_S351 (constantI S_ 32 27#32)))
          (fun i => lit1 (S351.rowMajor i)) : (⟨S351, .i32⟩ : BufTy).Contents (Elt F))⟩]
    concatenates_S351x1_S351x1_S351x2_d1

/-- The 27 rows of every sample: the dense array, given a middle axis, on top of the embedding array. -/
abbrev stacked (x0 : (⟨S16384x128, .f32⟩ : BufTy).Contents (Elt F)) (x1 : (⟨S16384x26x128, .f32⟩ : BufTy).Contents (Elt F)) :
    (⟨S16384x27x128, .f32⟩ : BufTy).Contents (Elt F) :=
  concatenate S16384x27x128 1
    [⟨S16384x1x128, broadcastInDim S16384x1x128 ![0, 2] bcast_S16384x128_S16384x1x128_0_2 x0⟩, ⟨S16384x26x128, x1⟩]
    concatenates_S16384x1x128_S16384x26x128_S16384x27x128_d1

/-- On every device, for any float values, from any memory with zero counters: every weakly fair execution of the
    program terminates with the result at the gather, at the pair table, of the batched dot product of the stacked
    array with itself, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
        = Host.gather gather_S16384x27x27_S351x2_S16384x351_0_12_n_n_12_1_1638411
            (Host.dotGeneral dot_S16384x27x128_S16384x27x128_S16384x27x27_2_2_1_1_0_0 none
              (stacked (m ((c.tc : Thread nD τ).loc main_arg0)) (m ((c.tc : Thread nD τ).loc main_arg1)))
              (stacked (m ((c.tc : Thread nD τ).loc main_arg0)) (m ((c.tc : Thread nD τ).loc main_arg1))))
            (pairTable (F := F))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v12).trans (by after_results <;> rfl),
      (h c main_arg0).trans (by after_results),
      (h c main_arg1).trans (by after_results)⟩)
    (run_seq scopedRefs_eq scopedSems_eq defs main (fun _ => ops) main_eq (fun _ => ops_sub) m ρ)

/-- On the extended reals the batched dot product of the stacked array with itself is the samples' Gram matrices. -/
theorem product_eq_gram (x0 : FVec Ideal S16384x128 .f32) (x1 : FVec Ideal S16384x26x128 .f32) :
    (Host.dotGeneral (F := Ideal) (φ₁ := .f32) (φ₂ := .f32) dot_S16384x27x128_S16384x27x128_S16384x27x27_2_2_1_1_0_0 none
        (stacked (F := Ideal) x0 x1 : FVec Ideal S16384x27x128 .f32) (stacked (F := Ideal) x0 x1 : FVec Ideal S16384x27x128 .f32)
        : FVec Ideal S16384x27x27 .f32)
      = Cert.GramSpec.gram x0 x1 :=
  Cert.GramSpec.host_product (n := 16384) dot_S16384x27x128_S16384x27x128_S16384x27x27_2_2_1_1_0_0_wf x0 x1
    bcast_S16384x128_S16384x1x128_0_2 concatenates_S16384x1x128_S16384x26x128_S16384x27x128_d1

end Cert.ReferenceIdeal.HandRun

end
-- ==== Proof.Tables.lean ====
/-
  The two programs list the same pairs.

  Each program carries two tables of 351 integers: the first members 0, …, 0, 1, …, 1, …, 25 and the second members
  1, …, 26, 2, …, 26, …, 26 of the pairs (f, g) with f < g ≤ 26, in row-major order.  The tables of the kernel's
  program and of the reference are equal entry by entry: 351 comparisons of literals each.
-/
import proofs.«128177_j5403068858956_2_alg».proof.KernelIdeal
import proofs.«128177_j5403068858956_2_alg».proof.ReferenceIdeal

namespace Cert.PairTables

/-- The first members agree. -/
theorem first_eq : Cert.ReferenceIdeal.lit0 = Cert.KernelIdeal.lit0 :=
  funext (by decide +kernel : ∀ i : Fin 351, Cert.ReferenceIdeal.lit0 i = Cert.KernelIdeal.lit0 i)

/-- The second members agree. -/
theorem second_eq : Cert.ReferenceIdeal.lit1 = Cert.KernelIdeal.lit1 :=
  funext (by decide +kernel : ∀ i : Fin 351, Cert.ReferenceIdeal.lit1 i = Cert.KernelIdeal.lit1 i)

end Cert.PairTables
-- ==== Proof.lean ====
/-
  The kernel and its reference compute the same 351 dot products per sample.

  For each of 16384 samples there are 27 rows of 128 numbers: a dense row and 26 embedding rows.  Both programs form,
  per sample, the 27 × 27 table of the rows' dot products (the Gram matrix), and then pick out its strict upper
  triangle, the 351 entries (f, g) with f < g, in row-major order.

  * The kernel's pipeline handles 256 samples per grid point; a sample's Gram matrix depends on that sample's rows
    only, so the 64 blocks written back are the 64 blocks of ONE array, the Gram matrices of the whole arguments, and
    they tile the output.  On the extended reals the change of float format on the way into the matrix unit is the
    identity and the product into a zero accumulator is the plain sum of products.
  * The reference stacks the rows of all samples at once and takes the host's batched dot product: the same sum of
    products, entry by entry, with the products added in the same single sum over the 128 positions.  No law that
    would need finite entries is used: the two sums are literally the same sum.
  * Both programs then build the same [351, 2] table of pairs (their literal tables agree entry by entry) and apply
    the same gather to equal arrays; the gather is never opened.

  The frames of the two kernel programs are the generated ones; the reference's frame is its run with the result
  dropped; the idealization rewrote nothing, so that conjunct is trivial.
-/
import proofs.«128177_j5403068858956_2_alg».proof.Defs
import proofs.«128177_j5403068858956_2_alg».proof.Proof.Gen.Kernel
import proofs.«128177_j5403068858956_2_alg».proof.Proof.Gen.Kernel.Frame
import proofs.«128177_j5403068858956_2_alg».proof.Proof.Gen.KernelIdeal
import proofs.«128177_j5403068858956_2_alg».proof.Proof.Gen.KernelIdeal.Frame
import proofs.«128177_j5403068858956_2_alg».proof.Proof.Gen.ReferenceIdeal
import proofs.«128177_j5403068858956_2_alg».proof.Proof.Gen.Pre_finite_inputs
import proofs.«128177_j5403068858956_2_alg».proof.Proof.KernelRun
import proofs.«128177_j5403068858956_2_alg».proof.Proof.RefRun
import proofs.«128177_j5403068858956_2_alg».proof.Proof.Tables
import Idealize.ShloMosaic.Adequacy
import Idealize.ShloMosaic.Init

noncomputable section

namespace Cert.Proof

open Idealize.ShloMosaic Idealize.ShloMosaic.TcCoe Idealize.SL.Sem

/-- The two programs' pair tables are one table. -/
theorem pairTable_eq :
    Cert.ReferenceIdeal.HandRun.pairTable (F := Ideal) = Cert.KernelIdeal.GramValue.pairTable := by
  unfold Cert.ReferenceIdeal.HandRun.pairTable Cert.KernelIdeal.GramValue.pairTable
  rw [Cert.PairTables.first_eq, Cert.PairTables.second_eq]

/-- So the two programs' gathers, of one array, are one array. -/
theorem same_gather (X : FVec Ideal Cert.KernelIdeal.S16384x27x27 .f32) :
    Host.gather Cert.ReferenceIdeal.gather_S16384x27x27_S351x2_S16384x351_0_12_n_n_12_1_1638411 X
        (Cert.ReferenceIdeal.HandRun.pairTable (F := Ideal))
      = Host.gather Cert.KernelIdeal.gather_S16384x27x27_S351x2_S16384x351_0_12_n_n_12_1_1638411 X
        Cert.KernelIdeal.GramValue.pairTable := by
  rw [pairTable_eq]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.HandRun.run (F := Ideal) m ρ)

/-- From memories that agree on the arguments both programs end with the gather, at the one pair table, of the Gram
    matrices of the arguments. -/
theorem algebraic : Cert.algebraic_KernelIdeal_ReferenceIdeal := by
  intro m ρ m' ρ' _ hagree
  refine ⟨_, Cert.KernelIdeal.GramValue.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.HandRun.product_eq_gram, (hagree c).1, (hagree c).2]
  exact same_gather _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
